-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192x1 : Shape := ⟨2, ![8192, 1]⟩
abbrev S2x1x8192 : Shape := ⟨3, ![2, 1, 8192]⟩
abbrev S512x8192 : Shape := ⟨2, ![512, 8192]⟩
abbrev S512x1 : Shape := ⟨2, ![512, 1]⟩
abbrev S1x1x8192 : Shape := ⟨3, ![1, 1, 8192]⟩
abbrev S1x8192 : Shape := ⟨2, ![1, 8192]⟩
abbrev S512 : Shape := ⟨1, ![512]⟩
abbrev S8192 : Shape := ⟨1, ![8192]⟩
abbrev S2x8192 : Shape := ⟨2, ![2, 8192]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x1, .f32⟩
  | .hbm, ⟨2, _⟩ => ⟨S2x1x8192, .f32⟩
  | .hbm, ⟨3, _⟩ => ⟨S2x8192, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1x1x8192, .f32⟩
  | .local _ .vmem, ⟨5, _⟩ => ⟨S1x1x8192, .f32⟩
  | .local _ .vmem, ⟨6, _⟩ => ⟨S1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x8192_S8192 : S512x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S2x1x8192_S2x8192 : S2x1x8192.ShapeCasts S2x8192
  reducesTo_S2x8192_S8192_d0 : S2x8192.ReducesTo [0] S8192
  h_S_ : 0 < S_.numel
  bcast_S8192_S1x8192_1 : S8192.BroadcastsInDim S1x8192 (![1] : Fin 1 → Fin S1x8192.rank)
  shapeCasts_S8192x1_S8192 : S8192x1.ShapeCasts S8192
  shapeCasts_S1x8192_S8192 : S1x8192.ShapeCasts S8192
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192x8192_S8192_d0 : S8192x8192.ReducesTo [0] S8192
  reducesTo_S8192_S_d0 : S8192.ReducesTo [0] S_

variable [Facts₀]

class Facts : Prop extends Facts₀ where

variable [Facts]
-- ==== Proof.Found.lean ====
import proofs.«107649_j13082470383973_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What each of the body's two control cases leaves behind, as values of the body's loads.

  At a point where the running column sum is reset (the second grid coordinate is 0) the body stores zero into the
  carried buffer, reads it back, and then does what every other point does: it stores the row sums of the loaded
  block into the first output, adds the block's column sums into the carried buffer, and copies the carried buffer
  into the second output.  So with `x` the loaded block and `s` the carried buffer as the body finds it (zero after
  a reset), the three buffers end at

      row sums of x,      s + column sums of x   (copied, under a unit axis),      s + column sums of x.

  Each buffer is written by stores that cover it whole at offset zero, so reading the stores back is reading the
  last stored value; a load of a whole buffer at offset zero is the buffer's contents.
-/

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that does not reset -/

/-- The first output's block: the row sums of the loaded block. -/
theorem rows_B (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : ¬cond0_0 i) (x : Vec F S512x8192 .f32) (xs : Vec F S1x8192 .f32) :
    out0_B_1 c i a2 h2 a3 h3 a4 h4 a5 h5 hc x xs = k0_pay2 x := by
  unfold out0_B_1
  rw [View.read_writes_eq_canon _ _ _ (cover0_B_1 c i a2 h2 a3 h3 a4 h4 a5 h5 hc x xs)]
  unfold kernelRun0_B
  dsimp only
  rw [View.canon_unit_zero hz2]
  simp only [View.readAt_eq_ld, h2.read_unread, View.ld_unit_zero (S := S512x8192) hz2]

/-- The carried buffer: what it held plus the column sums of the loaded block. -/
theorem acc_B (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : ¬cond0_0 i) (x : Vec F S512x8192 .f32) (xs : Vec F S1x8192 .f32) :
    sout0_B_0 c i a2 h2 a3 h3 a4 h4 a5 h5 hc x xs = k0_pay3 x xs := by
  unfold sout0_B_0
  rw [View.read_writes_eq_canon _ _ _ (scover0_B_0 c i a2 h2 a3 h3 a4 h4 a5 h5 hc x xs)]
  unfold kernelRun0_B
  dsimp only
  sl_unfold_words
  rw [View.canon_unit_zero hz2]
  simp only [View.readAt_eq_ld, h2.read_unread, h5.read_unread, View.ld_unit_zero (S := S512x8192) hz2,
    View.ld_unit_zero (S := S1x8192) hz2]

/-- The second output's block: a copy of the carried buffer as just updated. -/
theorem part_B (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : ¬cond0_0 i) (x : Vec F S512x8192 .f32) (xs : Vec F S1x8192 .f32) :
    out0_B_2 c i a2 h2 a3 h3 a4 h4 a5 h5 hc x xs = k0_pay4 (k0_pay3 x xs) := by
  unfold out0_B_2
  rw [View.read_writes_eq_canon _ _ _ (cover0_B_2 c i a2 h2 a3 h3 a4 h4 a5 h5 hc x xs)]
  unfold kernelRun0_B
  dsimp only
  sl_unfold_words
  rw [View.canon_unit_zero hz3, View.readCov_cons_toLoadRect]
  simp only [View.readAt_eq_ld, h2.read_unread, h5.read_unread, View.ld_unit_zero (S := S512x8192) hz2,
    View.ld_unit_zero (S := S1x8192) hz2]

/-! ## A point that resets -/

/-- The first output's block: the row sums of the loaded block. -/
theorem rows_A (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : cond0_0 i) (x : Vec F S512x8192 .f32) :
    out0_A_1 c i a2 h2 a3 h3 a4 h4 a5 h5 hc x = k0_pay2 x := by
  unfold out0_A_1
  rw [View.read_writes_eq_canon _ _ _ (cover0_A_1 c i a2 h2 a3 h3 a4 h4 a5 h5 hc x)]
  unfold kernelRun0_A
  dsimp only
  rw [View.canon_unit_zero hz2]
  simp only [View.readAt_eq_ld, h2.read_unread, View.ld_unit_zero (S := S512x8192) hz2]

/-- The carried buffer: zero plus the column sums of the loaded block. -/
theorem acc_A (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : cond0_0 i) (x : Vec F S512x8192 .f32) :
    sout0_A_0 c i a2 h2 a3 h3 a4 h4 a5 h5 hc x = k0_pay3 x k0_pay1 := by
  unfold sout0_A_0
  rw [View.read_writes_eq_canon _ _ _ (scover0_A_0 c i a2 h2 a3 h3 a4 h4 a5 h5 hc x)]
  unfold kernelRun0_A
  dsimp only
  sl_unfold_words
  rw [View.canon_cons_unit_zero (S := S1x8192) hz2, View.readCov_cons_toLoadRect]
  simp only [View.readAt_eq_ld, h2.read_unread, View.ld_unit_zero (S := S512x8192) hz2]

/-- The second output's block: a copy of the carried buffer as just updated. -/
theorem part_A (c : Dev nD) (i : grid0.Coords) (a2 : Memref sig .tc .vmem S512x8192 .f32) (h2 : a2.IsWhole)
    (a3 : Memref sig .tc .vmem S512x1 .f32) (h3 : a3.IsWhole) (a4 : Memref sig .tc .vmem S1x1x8192 .f32) (h4 : a4.IsWhole)
    (a5 : Memref sig .tc .vmem S1x8192 .f32) (h5 : a5.IsWhole) (hc : cond0_0 i) (x : Vec F S512x8192 .f32) :
    out0_A_2 c i a2 h2 a3 h3 a4 h4 a5 h5 hc x = k0_pay4 (k0_pay3 x k0_pay1) := by
  unfold out0_A_2
  rw [View.read_writes_eq_canon _ _ _ (cover0_A_2 c i a2 h2 a3 h3 a4 h4 a5 h5 hc x)]
  unfold kernelRun0_A
  dsimp only
  sl_unfold_words
  rw [View.canon_unit_zero hz3, View.readCov_cons_toLoadRect, View.readCov_cons_toLoadRect]
  simp only [View.readAt_eq_ld, h2.read_unread, View.ld_unit_zero (S := S512x8192) hz2]

end Cert.KernelIdeal.Found

end
-- ==== Proof.Payloads.lean ====
/-
  The four values the kernel body stores, read at one index over the extended reals.

  * the reset value of the running column sum is `0` everywhere;
  * the row-sum block: entry `(r, 0)` is the sum over the 8192 columns of row `r` of the loaded block;
  * the updated running column sum: entry `(0, j)` is the old entry plus the sum over the block's 512 rows of column `j`;
  * the partial column-sum block written out is the running column sum with a unit axis put in front.

  A lane reduction at the ideal instance is the plain finite sum over the reduced axis; the shape casts only add or
  drop unit axes, so each reads its operand at the same row-major position.
-/
import proofs.«107649_j13082470383973_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The value stored at a reset: zero at every column. -/
theorem reset_apply (u : Fin 1) (j : Fin 8192) : k0_pay1 (F := Ideal) (ix2 u j) = 0 := by
  unfold k0_pay1
  refine (congrFun (shapeCast_self _ shapeCasts_S1x8192_S1x8192) (ix2 u j)).trans ?_
  exact Ideal.ofBits_zero_f32

/-- The row-sum block: row `r` of the loaded block summed over its 8192 columns. -/
theorem rowsum_apply (x : Vec Ideal S512x8192 .f32) (r : Fin 512) (u : Fin 1) :
    k0_pay2 (F := Ideal) x (ix2 r u) = ∑ k : Fin 8192, x (ix2 r k) := by
  unfold k0_pay2
  refine (shapeCast_apply _ shapeCasts_S512_S512x1 (ix2 r u) (ix1 r) ?_).trans ?_
  · rw [Shape.rowMajor_val_one, Shape.rowMajor_val_two]
    show r.val = r.val * 1 + u.val
    omega
  · refine (Ideal.multiReduction_add_single (φ := .f32) x 0x00000000#32 reduces_S512x8192_S512 (.inl rfl) rfl (ix1 r)).trans ?_
    exact Finset.sum_congr rfl fun k _ =>
      congrArg x (funext fun a => Fin.ext (by match a with | ⟨0, _⟩ => rfl | ⟨1, _⟩ => rfl))

/-- The updated running column sum: the old entry plus column `j` of the loaded block summed over its 512 rows. -/
theorem colacc_apply (x : Vec Ideal S512x8192 .f32) (acc : Vec Ideal S1x8192 .f32) (u : Fin 1) (j : Fin 8192) :
    k0_pay3 (F := Ideal) x acc (ix2 u j) = acc (ix2 u j) + ∑ r : Fin 512, x (ix2 r j) := by
  unfold k0_pay3
  refine (congrFun (shapeCast_self _ shapeCasts_S1x8192_S1x8192) (ix2 u j)).trans ?_
  refine congrArg (acc (ix2 u j) + ·) ?_
  refine (shapeCast_a_1a_apply _ shapeCasts_S8192_S1x8192 u j).trans ?_
  refine (Ideal.multiReduction_add_single (φ := .f32) x 0x00000000#32 reduces_S512x8192_S8192 (.inl rfl) rfl (ix1 j)).trans ?_
  exact Finset.sum_congr rfl fun k _ =>
    congrArg x (funext fun a => Fin.ext (by match a with | ⟨0, _⟩ => rfl | ⟨1, _⟩ => rfl))

/-- The block written to the partial column sums: the running column sum under one more unit axis. -/
theorem partial_apply (v : Vec Ideal S1x8192 .f32) (a b : Fin 1) (j : Fin 8192) :
    k0_pay4 (F := Ideal) v (ix3 a b j) = v (ix2 b j) := by
  unfold k0_pay4
  exact shapeCast_ab_1ab_apply v shapeCasts_S1x8192_S1x1x8192 a b j

end Cert.KernelIdeal.Pay

end
-- ==== Proof.Running.lean ====
import proofs.«107649_j13082470383973_2_alg».proof.Proof.Found
import proofs.«107649_j13082470383973_2_alg».proof.Proof.Payloads

noncomputable section

open Idealize.ShloMosaic Idealize.ShloMosaic.TcCoe Idealize.SL.Sem
open Idealize.ShloMosaic.Pipeline (Dat)

/-!
  The three buffers after each grid point.

  The 16 grid points are visited in order; point `n` loads rows `512 n … 512 n + 511` of `flow`.  After point `n`

  * the first output's buffer holds the row sums of point `n`'s block;
  * the carried buffer holds the running column sum of the run of points `8 (n / 8) … n`: it is reset to zero at the
    points divisible by 8 and every point adds its block's column sums;
  * the second output's buffer holds a copy of the carried buffer.

  The running sum is a fold over the points of a run; read at one column it is `0` plus the finite sum of the points'
  addends, by induction along the run (no enumeration of the grid).
-/

namespace Cert.KernelIdeal.Running

open Idealize.ShloMosaic.ValueIdx Cert.KernelIdeal Cert.KernelIdeal.Gen

section AnyValues

variable {F : FTy → Type} [FloatOps F]
variable (m : (ℓ : Loc nD τ sig) → Buf (Elt F) ℓ)

/-- After every point the first output's buffer holds the row sums of that point's block. -/
theorem rows_at (c : Dev nD) (t : Fin cfg0.N) : (outsAt0 m c t.val t.isLt).1 = k0_pay2 (iblk m c 0 t) := by
  by_cases h0 : t.val % 8 = 0
  · rw [outsAt0_A m c t h0]
    dsimp only
    exact Found.rows_A c (grid0.coords t) (ms0_0 t) (hs0_0 t) (ms0_1 t) (hs0_1 t) (ms0_2 t) (hs0_2 t) scM0_0 (Memref.isWhole_whole _) ((hcond0_0 t).mpr h0) (iblk m c 0 t)
  · rw [outsAt0_B m c t h0]
    dsimp only
    exact Found.rows_B c (grid0.coords t) (ms0_0 t) (hs0_0 t) (ms0_1 t) (hs0_1 t) (ms0_2 t) (hs0_2 t) scM0_0 (Memref.isWhole_whole _) (fun h => h0 ((hcond0_0 t).mp h)) (iblk m c 0 t) (outsAt0 m c (t.val - 1) (Nat.lt_of_le_of_lt (Nat.sub_le _ _) t.isLt)).2.2

/-- At a reset point the carried buffer ends at zero plus the column sums of the point's block. -/
theorem carried_reset (c : Dev nD) (t : Fin cfg0.N) (h0 : t.val % 8 = 0) :
    (outsAt0 m c t.val t.isLt).2.2 = k0_pay3 (iblk m c 0 t) k0_pay1 := by
  rw [outsAt0_A m c t h0]
  dsimp only
  exact Found.acc_A c (grid0.coords t) (ms0_0 t) (hs0_0 t) (ms0_1 t) (hs0_1 t) (ms0_2 t) (hs0_2 t) scM0_0 (Memref.isWhole_whole _) ((hcond0_0 t).mpr h0) (iblk m c 0 t)

/-- At any other point it ends at what the point before left plus the column sums of the point's block. -/
theorem carried_step (c : Dev nD) (t : Fin cfg0.N) (h0 : ¬t.val % 8 = 0) :
    (outsAt0 m c t.val t.isLt).2.2 = k0_pay3 (iblk m c 0 t) (outsAt0 m c (t.val - 1) (Nat.lt_of_le_of_lt (Nat.sub_le _ _) t.isLt)).2.2 := by
  rw [outsAt0_B m c t h0]
  dsimp only
  exact Found.acc_B c (grid0.coords t) (ms0_0 t) (hs0_0 t) (ms0_1 t) (hs0_1 t) (ms0_2 t) (hs0_2 t) scM0_0 (Memref.isWhole_whole _) (fun h => h0 ((hcond0_0 t).mp h)) (iblk m c 0 t) (outsAt0 m c (t.val - 1) (Nat.lt_of_le_of_lt (Nat.sub_le _ _) t.isLt)).2.2

/-- After every point the second output's buffer holds a copy of the carried buffer. -/
theorem copy_at (c : Dev nD) (t : Fin cfg0.N) :
    (outsAt0 m c t.val t.isLt).2.1 = k0_pay4 (outsAt0 m c t.val t.isLt).2.2 := by
  by_cases h0 : t.val % 8 = 0
  · rw [outsAt0_A m c t h0]
    dsimp only
    rw [Found.part_A c (grid0.coords t) (ms0_0 t) (hs0_0 t) (ms0_1 t) (hs0_1 t) (ms0_2 t) (hs0_2 t) scM0_0 (Memref.isWhole_whole _) ((hcond0_0 t).mpr h0) (iblk m c 0 t), Found.acc_A c (grid0.coords t) (ms0_0 t) (hs0_0 t) (ms0_1 t) (hs0_1 t) (ms0_2 t) (hs0_2 t) scM0_0 (Memref.isWhole_whole _) ((hcond0_0 t).mpr h0) (iblk m c 0 t)]
  · rw [outsAt0_B m c t h0]
    dsimp only
    rw [Found.part_B c (grid0.coords t) (ms0_0 t) (hs0_0 t) (ms0_1 t) (hs0_1 t) (ms0_2 t) (hs0_2 t) scM0_0 (Memref.isWhole_whole _) (fun h => h0 ((hcond0_0 t).mp h)) (iblk m c 0 t) (outsAt0 m c (t.val - 1) (Nat.lt_of_le_of_lt (Nat.sub_le _ _) t.isLt)).2.2, Found.acc_B c (grid0.coords t) (ms0_0 t) (hs0_0 t) (ms0_1 t) (hs0_1 t) (ms0_2 t) (hs0_2 t) scM0_0 (Memref.isWhole_whole _) (fun h => h0 ((hcond0_0 t).mp h)) (iblk m c 0 t) (outsAt0 m c (t.val - 1) (Nat.lt_of_le_of_lt (Nat.sub_le _ _) t.isLt)).2.2]

end AnyValues

section ExtendedReals

variable (m : (ℓ : Loc nD τ sig) → Buf (Elt Ideal) ℓ)

/-- Point `n`'s addend to the running column sum at column `j`: that column summed over the 512 rows of the block the
    point loads (zero past the grid, where it is never used). -/
def blockCol (c : Dev nD) (n : ℕ) (j : Fin 8192) : EReal :=
  if h : n < cfg0.N then ∑ r : Fin 512, (iblk m c 0 ⟨n, h⟩ : Vec Ideal S512x8192 .f32) (ix2 r j) else 0

/-- The carried buffer after point `n`, read at column `j`. -/
def carried (c : Dev nD) (n : ℕ) (h : n < cfg0.N) : Fin 8192 → EReal :=
  fun j => (outsAt0 m c n h).2.2 (ix2 (0 : Fin 1) j)

theorem carried_at_reset (c : Dev nD) (n : ℕ) (h : n < cfg0.N) (h0 : n % 8 = 0) :
    carried m c n h = fun j => 0 + blockCol m c n j := by
  funext j
  unfold carried
  rw [carried_reset m c ⟨n, h⟩ h0]
  refine (Pay.colacc_apply (iblk m c 0 ⟨n, h⟩) (k0_pay1 (F := Ideal)) 0 j).trans ?_
  rw [Pay.reset_apply]
  unfold blockCol
  rw [dif_pos h]

theorem carried_at_step (c : Dev nD) (n : ℕ) (h : n + 1 < cfg0.N) (h0 : ¬(n + 1) % 8 = 0) :
    carried m c (n + 1) h = fun j => carried m c n (Nat.lt_of_succ_lt h) j + blockCol m c (n + 1) j := by
  funext j
  unfold carried
  rw [carried_step m c ⟨n + 1, h⟩ h0]
  refine (Pay.colacc_apply (iblk m c 0 ⟨n + 1, h⟩) _ 0 j).trans ?_
  unfold blockCol
  rw [dif_pos h]
  rfl

/-- THE RUNNING COLUMN SUM: after point `t` the carried buffer holds, at column `j`, the sum of the addends of the points
    `8 (t / 8) … t` of its run. -/
theorem carried_eq (c : Dev nD) (t : ℕ) (ht : t < cfg0.N) (j : Fin 8192) :
    carried m c t ht j = 0 + ∑ s ∈ Finset.range (t % 8 + 1), blockCol m c (8 * (t / 8) + s) j := by
  have h' : 8 * (t / 8) + t % 8 < cfg0.N := by rw [Nat.div_add_mod]; exact ht
  rw [Pipeline.eq_accAt_of_mod (N := cfg0.N) (carried m c) 8
    (fun n _ j => 0 + blockCol m c n j) (fun n _ acc j => acc j + blockCol m c n j)
    (carried_at_reset m c) (carried_at_step m c) (by decide) t ht h']
  exact Pipeline.accAt_add_apply _ _ (fun _ => 0) (blockCol m c) (8 * (t / 8)) 7 (fun _ _ => rfl)
    (fun _ _ _ _ _ _ => rfl) (t % 8) (by omega) h' j

end ExtendedReals

end Cert.KernelIdeal.Running

end
-- ==== Proof.Arrays.lean ====
import proofs.«107649_j13082470383973_2_alg».proof.Proof.Running

noncomputable section

open Idealize.ShloMosaic Idealize.ShloMosaic.TcCoe Idealize.SL.Sem
open Idealize.ShloMosaic.Pipeline (Dat)

/-!
  The two output arrays after the sixteen points, over the extended reals.

  Point `t` reads rows `512 t … 512 t + 511` of `flow`, writes rows `512 t … 512 t + 511` of the row-sum array
  (a column of 8192 entries) at every point, and writes row `t / 8` of the partial column sums (two rows of 8192
  entries) at the last point of each run of eight, `t % 8 = 7`.  The blocks written tile both arrays, so

  * the row-sum array holds at `(i, 0)` the sum of row `i` of `flow`;
  * the partial column sums hold at `(q, 0, j)` zero plus the sum over the eight points `8 q … 8 q + 7` of the column-`j`
    sums of their blocks.
-/

namespace Cert.KernelIdeal.Arrays

open Idealize.ShloMosaic.ValueIdx Cert.KernelIdeal Cert.KernelIdeal.Gen

variable (m : (ℓ : Loc nD τ sig) → Buf (Elt Ideal) ℓ)

/-- The printed index maps, decided over the grid: the input and the row-sum window sit at block row `t`, the partial
    column sums at block row `t / 8`; every other block coordinate is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Point `t`'s input block at `(r, j)` is `flow` at `(512 t + r, j)`. -/
theorem iblk_apply (c : Dev nD) (t : Fin cfg0.N) (r : Fin 512) (j : Fin 8192) (hr : 512 * t.val + r.val < 8192) :
    (iblk m c 0 t : Vec Ideal S512x8192 .f32) (ix2 r j) = V m c main_arg0 (ix2 ⟨512 * t.val + r.val, hr⟩ j) := by
  obtain ⟨e0, e1, -⟩ := index_facts t
  unfold iblk
  rw [View.read_apply]
  show V m c main_arg0 (((cfg0.win 0).blk t).view.emb (ix2 r j)) = _
  refine congrArg (V m c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 8192 + 1 * j.val = j.val; rw [e1]; omega

/-! ## The row sums -/

/-- The row-sum array: at `(i, 0)` the sum of row `i`. -/
def rowSums (x : S8192x8192.Idx → EReal) : S8192x1.Idx → EReal :=
  fun i => ∑ k : Fin 8192, x (ix2 ⟨(i 0).val, idx2_lt0 i⟩ k)

/-- The row sums of point `t`'s block are block `t` of the row-sum array. -/
theorem rows_block (c : Dev nD) (t : Fin cfg0.N) (y : S512x1.Idx) :
    k0_pay2 (F := Ideal) (iblk m c 0 t) y = rowSums (V m c main_arg0) (((cfg0.win 1).blk t).view.emb y) := by
  obtain ⟨-, -, e0, e1, -⟩ := index_facts t
  have hN : t.val < 16 := lt_of_lt_of_eq t.isLt N_0
  obtain ⟨r, u, rfl⟩ : ∃ (r : Fin 512) (u : Fin 1), y = ix2 r u := ⟨y 0, y 1, eq_ix2 y⟩
  refine (Pay.rowsum_apply (iblk m c 0 t) r u).trans ?_
  unfold rowSums
  refine Finset.sum_congr rfl fun k _ => ?_
  have hr : 512 * t.val + r.val < 8192 := by omega
  refine (iblk_apply m c t r k hr).trans ?_
  refine congrArg (V m c main_arg0) (funext fun a => Fin.ext ?_)
  match a with
  | ⟨0, _⟩ => show 512 * t.val + r.val = win0_1.index t (0 : Fin 2) * 512 + 1 * r.val; rw [e0]; omega
  | ⟨1, _⟩ => rfl

/-- What point `t` writes back to the row-sum array. -/
theorem flushed_rows (c : Dev nD) (t : Fin cfg0.N) :
    (dats m 0 c).flushed 1 t = ((cfg0.win 1).blk t).view.read (Elt Ideal) (rowSums (V m c main_arg0)) := by
  show (cfg0.win 1).cut (grid0.coords t) ((dats m 0 c).after 1 t) = _
  rw [after0_1, Running.rows_at]
  funext y
  exact rows_block m c t y

/-- An index of the row-sum array is in point `t`'s block iff each coordinate is in the block's range. -/
theorem mem_blk_rows (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- THE ROW-SUM ARRAY after the run. -/
theorem final_rows (c : Dev nD) : (dats m 0 c).arrAt 1 cfg0.N = rowSums (V m c main_arg0) :=
  (dats m 0 c).arrAt_eq_of_cover 1 _ (fun t _ => flushed_rows m c t) fun i => by
    have hi0 : (i 0).val < 8192 := (i 0).isLt
    have hi1 : (i 1).val < 1 := (i 1).isLt
    have hN : cfg0.N = 16 := N_0
    have ht : (i 0).val / 512 < cfg0.N := by omega
    obtain ⟨-, -, e0, e1, -⟩ := index_facts ⟨(i 0).val / 512, ht⟩
    refine ⟨⟨(i 0).val / 512, ht⟩, flush0_1 _, ?_⟩
    rw [mem_blk_rows]
    intro a
    match a with
    | ⟨0, _⟩ =>
      show win0_1.index ⟨(i 0).val / 512, ht⟩ (0 : Fin 2) * 512 ≤ (i 0).val ∧ (i 0).val < win0_1.index ⟨(i 0).val / 512, ht⟩ (0 : Fin 2) * 512 + 512
      rw [e0]; dsimp only; omega
    | ⟨1, _⟩ =>
      show win0_1.index ⟨(i 0).val / 512, ht⟩ (1 : Fin 2) * 1 ≤ (i 1).val ∧ (i 1).val < win0_1.index ⟨(i 0).val / 512, ht⟩ (1 : Fin 2) * 1 + 1
      rw [e1]; omega

/-! ## The partial column sums -/

/-- Row `q` of the partial column sums at column `j`: zero plus the addends of the eight points `8 q … 8 q + 7`. -/
def partialAt (c : Dev nD) (q : ℕ) (j : Fin 8192) : EReal :=
  0 + ∑ s ∈ Finset.range 8, Running.blockCol m c (8 * q + s) j

/-- The partial-column-sum array. -/
def partials (c : Dev nD) : S2x1x8192.Idx → EReal :=
  fun i => partialAt m c (i 0).val ⟨(i 2).val, (i 2).isLt⟩

/-- At the last point of a run the copy of the carried buffer is that run's row of the partial column sums. -/
theorem partial_block (c : Dev nD) (t : Fin cfg0.N) (h7 : t.val % 8 = 7) (y : S1x1x8192.Idx) :
    k0_pay4 (F := Ideal) (outsAt0 m c t.val t.isLt).2.2 y = partials m c (((cfg0.win 2).blk t).view.emb y) := by
  obtain ⟨-, -, -, -, f0, f1, f2⟩ := index_facts t
  obtain ⟨a, b, j, rfl⟩ : ∃ (a b : Fin 1) (j : Fin 8192), y = ix3 a b j := ⟨y 0, y 1, y 2, eq_ix3 y⟩
  have ha : a.val = 0 := by omega
  obtain rfl : b = 0 := Fin.ext (by omega)
  refine (Pay.partial_apply _ a 0 j).trans ?_
  refine (Running.carried_eq m c t.val t.isLt j).trans ?_
  rw [h7]
  have e0 : ((((cfg0.win 2).blk t).view.emb (ix3 a 0 j)) 0).val = t.val / 8 := by
    show win0_2.index t (0 : Fin 3) * 1 + 1 * a.val = t.val / 8
    rw [f0]; omega
  have e2 : ((((cfg0.win 2).blk t).view.emb (ix3 a 0 j)) 2).val = j.val := by
    show win0_2.index t (2 : Fin 3) * 8192 + 1 * j.val = j.val
    rw [f2]; omega
  unfold partials
  exact (congrArg₂ (partialAt m c) e0 (Fin.ext e2)).symm

/-- What a flushing point writes back to the partial column sums. -/
theorem flushed_partials (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  show (cfg0.win 2).cut (grid0.coords t) ((dats m 0 c).after 2 t) = _
  rw [after0_2, Running.copy_at]
  funext y
  exact partial_block m c t h7 y

/-- An index of the partial column sums is in point `t`'s block iff each coordinate is in the block's range. -/
theorem mem_blk_partials (t : Fin cfg0.N) (i : S2x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v0_1).slice (win0_2.rect t)).set ↔ _
  rw [View.set_slice_whole, Rect.mem_set_unit]
  exact Iff.rfl

/-- THE PARTIAL COLUMN SUMS after the run. -/
theorem final_partials (c : Dev nD) : (dats m 0 c).arrAt 2 cfg0.N = partials m c :=
  (dats m 0 c).arrAt_eq_of_cover 2 _ (fun t hf => flushed_partials m c t hf) fun i => by
    have hi0 : (i 0).val < 2 := (i 0).isLt
    have hi1 : (i 1).val < 1 := (i 1).isLt
    have hi2 : (i 2).val < 8192 := (i 2).isLt
    have hN : cfg0.N = 16 := N_0
    have ht : 8 * (i 0).val + 7 < cfg0.N := by omega
    obtain ⟨-, -, -, -, f0, f1, f2⟩ := index_facts ⟨8 * (i 0).val + 7, ht⟩
    refine ⟨⟨8 * (i 0).val + 7, ht⟩, (flush0_2 _).mpr (by dsimp only; omega), ?_⟩
    rw [mem_blk_partials]
    intro a
    match a with
    | ⟨0, _⟩ =>
      show win0_2.index ⟨8 * (i 0).val + 7, ht⟩ (0 : Fin 3) * 1 ≤ (i 0).val ∧ (i 0).val < win0_2.index ⟨8 * (i 0).val + 7, ht⟩ (0 : Fin 3) * 1 + 1
      rw [f0]; dsimp only; omega
    | ⟨1, _⟩ =>
      show win0_2.index ⟨8 * (i 0).val + 7, ht⟩ (1 : Fin 3) * 1 ≤ (i 1).val ∧ (i 1).val < win0_2.index ⟨8 * (i 0).val + 7, ht⟩ (1 : Fin 3) * 1 + 1
      rw [f1]; omega
    | ⟨2, _⟩ =>
      show win0_2.index ⟨8 * (i 0).val + 7, ht⟩ (2 : Fin 3) * 8192 ≤ (i 2).val ∧ (i 2).val < win0_2.index ⟨8 * (i 0).val + 7, ht⟩ (2 : Fin 3) * 8192 + 8192
      rw [f2]; omega

end Cert.KernelIdeal.Arrays

end
-- ==== Proof.BlockSum.lean ====
/-
  Regrouping a finite sum.  A sum over the first `B * n` natural numbers is the sum, over `n` consecutive runs
  of length `B`, of the sums over each run; applied twice, a sum over `8192 = 512 * (8 * 2)` indices is a sum
  over 2 halves of 8 runs of 512 consecutive indices.  Only commutativity and associativity of `+` are used
  (an additive commutative monoid), so the law holds on the extended reals with no finiteness assumption.
-/
import Mathlib.Algebra.BigOperators.Fin

namespace Cert.BlockSum

open Finset

variable {M : Type*} [AddCommMonoid M]

/-- A sum over the first `B * n` naturals, cut into `n` consecutive runs of `B`. -/
theorem sum_range_mul (g : ℕ → M) (B : ℕ) : ∀ n : ℕ,
    ∑ k ∈ range (B * n), g k = ∑ t ∈ range n, ∑ r ∈ range B, g (B * t + r)
  | 0 => by simp
  | n + 1 => by
    rw [Nat.mul_succ, sum_range_add, sum_range_mul g B n, sum_range_succ]

/-- The same cut made twice: `C` groups of `J` runs of `B`. -/
theorem sum_range_mul_mul (g : ℕ → M) (B J C : ℕ) :
    ∑ k ∈ range (B * (J * C)), g k = ∑ c ∈ range C, ∑ s ∈ range J, ∑ r ∈ range B, g (B * (J * c + s) + r) := by
  rw [sum_range_mul g B (J * C), sum_range_mul (fun t => ∑ r ∈ range B, g (B * t + r)) J C]

/-- The sum over 8192 consecutive indices as 2 halves of 8 runs of 512. -/
theorem sum_8192 (g : ℕ → M) :
    ∑ c : Fin 2, ∑ s ∈ range 8, ∑ r : Fin 512, g (512 * (8 * c.val + s) + r.val) = ∑ k : Fin 8192, g k.val := by
  have h1 : ∀ c s : ℕ, ∑ r : Fin 512, g (512 * (8 * c + s) + r.val) = ∑ r ∈ range 512, g (512 * (8 * c + s) + r) :=
    fun c s => Fin.sum_univ_eq_sum_range (fun r => g (512 * (8 * c + s) + r)) 512
  simp only [h1]
  rw [Fin.sum_univ_eq_sum_range (fun c => ∑ s ∈ range 8, ∑ r ∈ range 512, g (512 * (8 * c + s) + r)) 2,
    Fin.sum_univ_eq_sum_range g 8192, show (8192 : ℕ) = 512 * (8 * 2) from rfl, sum_range_mul_mul g 512 8 2]

end Cert.BlockSum
-- ==== Proof.KernelValue.lean ====
import proofs.«107649_j13082470383973_2_alg».proof.Proof.Arrays
import proofs.«107649_j13082470383973_2_alg».proof.Proof.BlockSum
import Idealize.ShloMosaic.Lib.StableHlo.Run

noncomputable section

open Idealize.ShloMosaic Idealize.ShloMosaic.TcCoe Idealize.SL.Sem
open Idealize.ShloMosaic.Pipeline (Dat)

/-!
  The kernel program's result over the extended reals.

  After the sixteen points the host lines squeeze the row-sum array to a vector `rows`, add the two rows of the
  partial column sums into a vector `cols`, and return `0 + ∑ᵢ |rowsᵢ - colsᵢ|`.  Read at an index,

      rowsᵢ = ∑ₖ flow (i, k),
      colsᵢ = 0 + ∑_{q < 2} (0 + ∑_{s < 8} ∑_{r < 512} flow (512 (8 q + s) + r, i)) = 0 + ∑ₖ flow (k, i):

  the 8192 rows are cut into 2 · 8 runs of 512 consecutive rows, and a finite sum does not depend on how it is grouped.
-/

namespace Cert.KernelIdeal.KValue

open Idealize.ShloMosaic.ValueIdx Cert.KernelIdeal Cert.KernelIdeal.Gen

variable (m : (ℓ : Loc nD τ sig) → Buf (Elt Ideal) ℓ) (ρ : Dev nD → PrngReg)

/-- The argument array as the region finds it (and as the launch memory holds it). -/
abbrev flow (c : Dev nD) : S8192x8192.Idx → EReal := V m c main_arg0

/-- The row-sum array squeezed to a vector. -/
def rows (c : Dev nD) : S8192.Idx → EReal :=
  shapeCast S8192 ((dats m 0 c).arrAt 1 cfg0.N : S8192x1.Idx → EReal) shapeCasts_S8192x1_S8192

/-- The two rows of the partial column sums added, as a vector. -/
def cols (c : Dev nD) : S8192.Idx → EReal :=
  shapeCast S8192 (broadcastInDim S1x8192 ![1] bcast_S8192_S1x8192_1
    (Host.reduceAdd (F := Ideal)
      (shapeCast S2x8192 ((dats m 0 c).arrAt 2 cfg0.N : S2x1x8192.Idx → EReal) shapeCasts_S2x1x8192_S2x8192)
      (constant (F := Ideal) S_ .f32 0x00000000#32) reducesTo_S2x8192_S8192_d0 h_S_)) shapeCasts_S1x8192_S8192

/-- The program's result: the sum of the absolute differences. -/
def result (c : Dev nD) : Buf (Elt Ideal) ((c.tc : Thread nD τ).loc main_v8) :=
  Host.reduceAdd (F := Ideal) (Host.absf (F := Ideal) (subf (rows m c) (cols m c)))
    (constant (F := Ideal) S_ .f32 0x00000000#32) reducesTo_S8192_S_d0 h_S_

/-- The host lines after the region, run from the arrays the region leaves, end with the result buffer at `result`. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have e1 : Pipeline.withArrays (cfgs 0).spec c (V0 m c) (fun w => (dats m 0 c).arrAt w (cfgs 0).N)
      (Proc.devRef .tc main_v0_0) = (dats m 0 c).arrAt 1 cfg0.N :=
    Pipeline.withArrays_arr spec0 launch0.win.arr_inj c _ _ 1
  have e2 : Pipeline.withArrays (cfgs 0).spec c (V0 m c) (fun w => (dats m 0 c).arrAt w (cfgs 0).N)
      (Proc.devRef .tc main_v0_1) = (dats m 0 c).arrAt 2 cfg0.N :=
    Pipeline.withArrays_arr spec0 launch0.win.arr_inj c _ _ 2
  rw [e1, e2]
  rfl

/-- The frame run re-posted: the result buffer at `result`, the argument unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0) :=
  (θ_run defs _ _).mono (fun _ h c =>
      ⟨((h c).2 main_v8 (Pipeline.mem_restRefs_of main_v8 rfl (by decide))).trans (tail_eq m c),
        ((h c).1 0).trans (((dats m 0 c).arrAt_in 0 rfl _).trans ((A_eq m c 0).trans (V_main_arg0 m c)))⟩)
    (run_main m ρ)

/-! ## The two vectors at an index -/

/-- Entry `i` of `rows` is the total of row `i` of `flow`. -/
theorem rows_apply (c : Dev nD) (a : Fin 8192) :
    rows m c (ix1 a) = ∑ k : Fin 8192, flow m c (ix2 a k) := by
  unfold rows
  rw [Arrays.final_rows]
  refine (shapeCast_apply _ shapeCasts_S8192x1_S8192 (ix1 a) (ix2 a (0 : Fin 1)) ?_).trans ?_
  · rw [Shape.rowMajor_val_two, Shape.rowMajor_val_one]
    show a.val * 1 + 0 = a.val
    omega
  · rfl

/-- Entry `i` of `cols` is zero plus the two partial column sums at column `i`. -/
theorem cols_apply (c : Dev nD) (a : Fin 8192) :
    cols m c (ix1 a) = 0 + ∑ q : Fin 2, Arrays.partialAt m c q.val a := by
  unfold cols
  rw [Arrays.final_partials]
  refine (shapeCast_1a_a_apply _ shapeCasts_S1x8192_S8192 a).trans ?_
  refine (broadcastInDim_apply ![1] bcast_S8192_S1x8192_1 _ (ix2 (0 : Fin 1) a) (ix1 a) ?_).trans ?_
  · intro d
    match d with
    | ⟨0, _⟩ => rfl
  · simp only [Host.reduceAdd, Ideal.hostReduceAdd_def]
    rw [Ideal.hostReduceAdd_single reducesTo_S2x8192_S8192_d0 (by decide)]
    refine congrArg₂ (· + ·) Ideal.ofBits_zero_f32 (Finset.sum_congr rfl fun q _ => ?_)
    refine (shapeCast_apply _ shapeCasts_S2x1x8192_S2x8192 _ (ix3 q (0 : Fin 1) a) ?_).trans ?_
    · rw [Shape.rowMajor_val_three, Shape.rowMajor_val_two]
      show (q.val * 1 + 0) * 8192 + a.val = q.val * 8192 + a.val
      omega
    · rfl

/-! ## The column total -/

/-- Column `a` of `flow` as a function of the row number (zero past the last row, where it is never read). -/
def colN (c : Dev nD) (a : Fin 8192) (k : ℕ) : EReal :=
  if h : k < 8192 then flow m c (ix2 ⟨k, h⟩ a) else 0

/-- A point's addend is the sum of column `a` over the point's 512 rows. -/
theorem blockCol_eq (c : Dev nD) (n : ℕ) (hn : n < 16) (a : Fin 8192) :
    Running.blockCol m c n a = ∑ r : Fin 512, colN m c a (512 * n + r.val) := by
  have hN : n < cfg0.N := lt_of_lt_of_eq hn N_0.symm
  unfold Running.blockCol
  rw [dif_pos hN]
  refine Finset.sum_congr rfl fun r _ => ?_
  have hr : 512 * n + r.val < 8192 := by omega
  refine (Arrays.iblk_apply m c ⟨n, hN⟩ r a hr).trans ?_
  unfold colN
  rw [dif_pos hr]

/-- Entry `i` of `cols` is zero plus the total of column `i` of `flow`: the 8192 rows regrouped as 2 · 8 runs of 512. -/
theorem cols_total (c : Dev nD) (a : Fin 8192) :
    cols m c (ix1 a) = 0 + ∑ k : Fin 8192, flow m c (ix2 k a) := by
  rw [cols_apply]
  refine congrArg (0 + ·) ?_
  have hq : ∀ q : Fin 2, Arrays.partialAt m c q.val a
      = ∑ s ∈ Finset.range 8, ∑ r : Fin 512, colN m c a (512 * (8 * q.val + s) + r.val) := by
    intro q
    unfold Arrays.partialAt
    rw [zero_add]
    refine Finset.sum_congr rfl fun s hs => ?_
    have hs' : s < 8 := Finset.mem_range.mp hs
    exact blockCol_eq m c _ (by omega) a
  rw [Finset.sum_congr rfl fun q _ => hq q, BlockSum.sum_8192 (colN m c a)]
  refine Finset.sum_congr rfl fun k _ => ?_
  unfold colN
  rw [dif_pos k.isLt]

end Cert.KernelIdeal.KValue

end
-- ==== Proof.RefSide.lean ====
/-
  The reference's two reductions read at an index over the extended reals: the sum of `flow` along axis 1 at `i` is
  `0 + ∑ₖ flow (i, k)` (a row total), along axis 0 it is `0 + ∑ₖ flow (k, i)` (a column total); the `0` is the
  reduction's initial value.
-/
import proofs.«107649_j13082470383973_2_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The total of row `i`. -/
theorem rowTotal_apply (x : (⟨S8192x8192, .f32⟩ : BufTy).Contents (Elt Ideal)) (i : Fin 8192) :
    val_main_v0 (F := Ideal) x (ix1 i) = 0 + ∑ k : Fin 8192, x (ix2 i k) := by
  rw [val_main_v0_apply]
  refine congrArg₂ (· + ·) Ideal.ofBits_zero_f32 (Finset.sum_congr rfl fun k _ => congrArg x ?_)
  funext a
  exact Fin.ext (by match a with | ⟨0, _⟩ => rfl | ⟨1, _⟩ => rfl)

/-- The total of column `i`. -/
theorem colTotal_apply (x : (⟨S8192x8192, .f32⟩ : BufTy).Contents (Elt Ideal)) (i : Fin 8192) :
    val_main_v1 (F := Ideal) x (ix1 i) = 0 + ∑ k : Fin 8192, x (ix2 k i) := by
  rw [val_main_v1_apply]
  refine congrArg₂ (· + ·) Ideal.ofBits_zero_f32 (Finset.sum_congr rfl fun k _ => congrArg x ?_)
  funext a
  exact Fin.ext (by match a with | ⟨0, _⟩ => rfl | ⟨1, _⟩ => rfl)

end Cert.ReferenceIdeal.RefValue

end
-- ==== Proof.lean ====
/-
  The kernel computes the mass-conservation loss `∑ᵢ |∑ⱼ flow (i, j) - ∑ⱼ flow (j, i)|` of an 8192 × 8192 matrix in one
  pass: sixteen grid points each load 512 consecutive rows, write those rows' sums, and add the block's column sums
  into a running column sum that is reset every eight points and copied out as one of two partial column sums; the host
  lines after the launch add the two partial sums, subtract them from the row sums, and sum the absolute values.  The
  reference reduces `flow` along each axis, subtracts, and sums the absolute values.

  Over the extended reals both programs apply the same last three operations (subtract, absolute value, sum) to a
  vector of row totals and a vector of column totals, so the claim is that the kernel's two vectors are the
  reference's.  The row totals are the same sums.  The column totals differ only in grouping: the kernel's is
  `0 + ∑_{q < 2} (0 + ∑_{s < 8} ∑_{r < 512} flow (512 (8 q + s) + r, i))`, the reference's `0 + ∑ₖ flow (k, i)`; a finite
  sum in a commutative monoid does not depend on its grouping, so no finiteness of the input is used.

  The three frames are the generated frame runs (the reference's is its generated run with the result dropped); the
  idealization rewrote no operation, so there is nothing to preserve.
-/
import proofs.«107649_j13082470383973_2_alg».proof.Defs
import proofs.«107649_j13082470383973_2_alg».proof.Proof.Gen.Kernel.Frame
import proofs.«107649_j13082470383973_2_alg».proof.Proof.Gen.KernelIdeal.Frame
import proofs.«107649_j13082470383973_2_alg».proof.Proof.Gen.ReferenceIdeal.Run
import proofs.«107649_j13082470383973_2_alg».proof.Proof.Gen.Pre_finite_inputs
import proofs.«107649_j13082470383973_2_alg».proof.Proof.KernelValue
import proofs.«107649_j13082470383973_2_alg».proof.Proof.RefSide

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's vector of row sums is the reference's reduction of `flow` along axis 1. -/
theorem rows_eq (m : (ℓ : Loc Cert.KernelIdeal.nD Cert.KernelIdeal.τ Cert.KernelIdeal.sig) → Buf (Elt Ideal) ℓ)
    (c : Dev Cert.KernelIdeal.nD) :
    Cert.KernelIdeal.KValue.rows m c
      = Cert.ReferenceIdeal.Read.val_main_v0 (F := Ideal)
          (m ((c.tc : Thread Cert.KernelIdeal.nD Cert.KernelIdeal.τ).loc Cert.KernelIdeal.main_arg0)) := by
  funext i
  obtain ⟨a, rfl⟩ : ∃ a : Fin 8192, i = ix1 a := ⟨i 0, eq_ix1 i⟩
  refine (Cert.KernelIdeal.KValue.rows_apply m c a).trans ?_
  refine Eq.trans ?_ (Cert.ReferenceIdeal.RefValue.rowTotal_apply _ a).symm
  exact (zero_add _).symm

/-- The kernel's vector of column sums is the reference's reduction of `flow` along axis 0. -/
theorem cols_eq (m : (ℓ : Loc Cert.KernelIdeal.nD Cert.KernelIdeal.τ Cert.KernelIdeal.sig) → Buf (Elt Ideal) ℓ)
    (c : Dev Cert.KernelIdeal.nD) :
    Cert.KernelIdeal.KValue.cols m c
      = Cert.ReferenceIdeal.Read.val_main_v1 (F := Ideal)
          (m ((c.tc : Thread Cert.KernelIdeal.nD Cert.KernelIdeal.τ).loc Cert.KernelIdeal.main_arg0)) := by
  funext i
  obtain ⟨a, rfl⟩ : ∃ a : Fin 8192, i = ix1 a := ⟨i 0, eq_ix1 i⟩
  refine (Cert.KernelIdeal.KValue.cols_total m c a).trans ?_
  exact (Cert.ReferenceIdeal.RefValue.colTotal_apply _ a).symm

/-- Both programs end, from memories that agree on `flow`, with the same extended real. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  show _ = Cert.KernelIdeal.KValue.result m c
  unfold Cert.KernelIdeal.KValue.result
  rw [rows_eq m c, cols_eq m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
